-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 41
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x4096, .f32⟩
  | .hbm, ⟨24, _⟩ => ⟨S1024x4096, .bf16⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x4096, .f32⟩
  | .hbm, ⟨30, _⟩ => ⟨S1024x4096, .bf16⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S4096, .f32⟩
  | .hbm, ⟨36, _⟩ => ⟨S1x4096, .f32⟩
  | .hbm, ⟨37, _⟩ => ⟨S16384x1024, .bf16⟩
  | .hbm, ⟨38, _⟩ => ⟨S16384x1024, .bf16⟩
  | .hbm, ⟨39, _⟩ => ⟨S16384x1024, .f32⟩
  | .hbm, ⟨40, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .bf16 = 32 ∨ (Rect.block (s := S16384x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .bf16 = 32 ∨ (Rect.block (s := S16384x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v18) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1024x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1024x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1024x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1024x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1024x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S1024x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelCellFrame.lean ====
/-
  The frame of the fused LSTM cell program: it runs to the end, faults nowhere, and leaves its nineteen argument
  arrays as they were.

  @main is twenty host operations (transposes and concatenations of the eight weight matrices into two 1024 × 4096
  matrices, the pairwise sums of the biases concatenated into one row of 4096, the casts of x and h) followed by ONE
  region over a grid of 64 points, one block of 256 batch rows per point. The region has six input windows — the
  point's rows of x, h and c_prev, and the two wide weight matrices and the bias row, whole at every point — and two
  output windows, the point's rows of the new hidden state and of the new cell state.

  The body loads each input block whole, computes, and stores each output block whole, so what an output's buffer
  holds after the body is one whole-block piece: the body's arithmetic (the skeleton's payloads) of the six input
  blocks. The proof data says exactly that at every point; the body's triple is the symbolic run of the skeleton; the
  run is the library's frame theorem for one region after a prefix of host operations. No host operation writes an
  argument array, and the region writes only its two result arrays, so every argument ends as launched.
-/
import proofs.«147148_j78855599554847_2_alg».proof.Proof.Gen.Kernel.Launch
import proofs.«147148_j78855599554847_2_alg».proof.Proof.Gen.Kernel.Skeleton
import proofs.«147148_j78855599554847_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the twenty host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: where it is not fetched
    (the weights and the bias row after the first point) the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- c_prev is staged by a window and read back through the proof data; the other eighteen arguments are staged by no
    window and end as the region found them; none is written by a host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: every load and store is of a whole block -/

abbrev rRows : Rect S256x1024 := Rect.unit (s := S256x1024) ![0, 0] S256x1024.size inb_S256x1024_S256x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output block -/

/-- The new hidden state's block: one whole-block store of `o · tanh c'` of the six input blocks. -/
def outH (x0 x1 : Vec F S256x1024 .bf16) (x2 : Vec F S256x1024 .f32) (x3 x4 : Vec F S1024x4096 .bf16) (x5 : Vec F S1x4096 .f32) : Vec F S256x1024 .f32 :=
  View.canon [⟨rRows, k0_pay3 (View.ld x0 rRows) (View.ld x1 rRows) (View.ld x2 rRows) (View.ld x3 rWide) (View.ld x4 rWide) (View.ld x5 rBias)⟩]

/-- The new cell state's block: one whole-block store of `tanh g · i + c · f` of the six input blocks. -/
def outC (x0 x1 : Vec F S256x1024 .bf16) (x2 : Vec F S256x1024 .f32) (x3 x4 : Vec F S1024x4096 .bf16) (x5 : Vec F S1x4096 .f32) : Vec F S256x1024 .f32 :=
  View.canon [⟨rRows, k0_pay2 (View.ld x0 rRows) (View.ld x1 rRows) (View.ld x2 rRows) (View.ld x3 rWide) (View.ld x4 rWide) (View.ld x5 rBias)⟩]

/-- One whole-block store covers the block. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- On whole staging buffers, the inputs' at contents `x0 … x5` and the outputs' at anything, the body runs to the
    continuation with the inputs' as they were and the outputs' at `outH` and `outC` of the inputs'. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 : Vec F S256x1024 .bf16) (x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The proof data -/

/-- On core `c`: the arrays as the region finds them; after the body at point `t` each input's buffer at its block
    and each output's at the body's result of the six input blocks; nothing of the kernel's own; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the region ends at what the proof data's
    write-backs make of it, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Cell

end
-- ==== Proof.IdealCellFrame.lean ====
/-
  The frame of the fused LSTM cell program: it runs to the end, faults nowhere, and leaves its nineteen argument
  arrays as they were.

  @main is twenty host operations (transposes and concatenations of the eight weight matrices into two 1024 × 4096
  matrices, the pairwise sums of the biases concatenated into one row of 4096, the casts of x and h) followed by ONE
  region over a grid of 64 points, one block of 256 batch rows per point. The region has six input windows — the
  point's rows of x, h and c_prev, and the two wide weight matrices and the bias row, whole at every point — and two
  output windows, the point's rows of the new hidden state and of the new cell state.

  The body loads each input block whole, computes, and stores each output block whole, so what an output's buffer
  holds after the body is one whole-block piece: the body's arithmetic (the skeleton's payloads) of the six input
  blocks. The proof data says exactly that at every point; the body's triple is the symbolic run of the skeleton; the
  run is the library's frame theorem for one region after a prefix of host operations. No host operation writes an
  argument array, and the region writes only its two result arrays, so every argument ends as launched.
-/
import proofs.«147148_j78855599554847_2_alg».proof.Proof.Gen.KernelIdeal.Launch
import proofs.«147148_j78855599554847_2_alg».proof.Proof.Gen.KernelIdeal.Skeleton
import proofs.«147148_j78855599554847_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the twenty host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: where it is not fetched
    (the weights and the bias row after the first point) the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- c_prev is staged by a window and read back through the proof data; the other eighteen arguments are staged by no
    window and end as the region found them; none is written by a host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: every load and store is of a whole block -/

abbrev rRows : Rect S256x1024 := Rect.unit (s := S256x1024) ![0, 0] S256x1024.size inb_S256x1024_S256x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output block -/

/-- The new hidden state's block: one whole-block store of `o · tanh c'` of the six input blocks. -/
def outH (x0 x1 : Vec F S256x1024 .bf16) (x2 : Vec F S256x1024 .f32) (x3 x4 : Vec F S1024x4096 .bf16) (x5 : Vec F S1x4096 .f32) : Vec F S256x1024 .f32 :=
  View.canon [⟨rRows, k0_pay3 (View.ld x0 rRows) (View.ld x1 rRows) (View.ld x2 rRows) (View.ld x3 rWide) (View.ld x4 rWide) (View.ld x5 rBias)⟩]

/-- The new cell state's block: one whole-block store of `tanh g · i + c · f` of the six input blocks. -/
def outC (x0 x1 : Vec F S256x1024 .bf16) (x2 : Vec F S256x1024 .f32) (x3 x4 : Vec F S1024x4096 .bf16) (x5 : Vec F S1x4096 .f32) : Vec F S256x1024 .f32 :=
  View.canon [⟨rRows, k0_pay2 (View.ld x0 rRows) (View.ld x1 rRows) (View.ld x2 rRows) (View.ld x3 rWide) (View.ld x4 rWide) (View.ld x5 rBias)⟩]

/-- One whole-block store covers the block. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- On whole staging buffers, the inputs' at contents `x0 … x5` and the outputs' at anything, the body runs to the
    continuation with the inputs' as they were and the outputs' at `outH` and `outC` of the inputs'. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 : Vec F S256x1024 .bf16) (x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The proof data -/

/-- On core `c`: the arrays as the region finds them; after the body at point `t` each input's buffer at its block
    and each output's at the body's result of the six input blocks; nothing of the kernel's own; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the region ends at what the proof data's
    write-backs make of it, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Cell

end
-- ==== Proof.Spec.lean ====
/-
  The LSTM-style cell both programs compute, as one function of the nineteen argument arrays, index by index on the
  extended reals. For a batch row `r` and a hidden unit `j` a GATE is the affine sum
      gate r j = (Σ_k x[r,k]·Wx[j,k] + Σ_k h[r,k]·Wh[j,k]) + (bx[j] + bh[j])
  (the weights are read transposed: row `j` of a weight matrix is unit `j`'s weights). With the four gates
  i, f, g, o (no squashing on i, f, o; tanh on g) the new cell state and the new hidden state are
      c' = tanh g · i + c · f        h' = o · tanh c'.
  Only + and · of the extended reals are used, so no finiteness of the inputs is needed anywhere.
-/
import Idealize.ShloMosaic.PureOps.Ideal
import Idealize.ShloMosaic.Lib.ValueIdx

noncomputable section

namespace Cert.LstmSpec

open Idealize.ShloMosaic Idealize.ShloMosaic.ValueIdx
open scoped BigOperators

/-- A batch of rows: 16384 × 1024. -/
abbrev SAct : Shape := ⟨2, ![16384, 1024]⟩
/-- A weight matrix: 1024 units × 1024 inputs. -/
abbrev SWt : Shape := ⟨2, ![1024, 1024]⟩
/-- A bias: one entry per unit. -/
abbrev SBias : Shape := ⟨1, ![1024]⟩

/-- One gate's affine sum at row `r`, unit `j`: the x-projection plus the h-projection plus the two biases. -/
def gate (x h : FVec Ideal SAct .f32) (Wx : FVec Ideal SWt .f32) (bx : FVec Ideal SBias .f32)
    (Wh : FVec Ideal SWt .f32) (bh : FVec Ideal SBias .f32) (r : Fin 16384) (j : Fin 1024) : EReal :=
  ((∑ k : Fin 1024, x (ix2 r k) * Wx (ix2 j k)) + (∑ k : Fin 1024, h (ix2 r k) * Wh (ix2 j k)))
    + (bx (ix1 j) + bh (ix1 j))

/-- The new cell state `c' = tanh g · i + c · f`. The arguments are in the programs' argument order. -/
def cNext (x h c : FVec Ideal SAct .f32)
    (Wix : FVec Ideal SWt .f32) (bix : FVec Ideal SBias .f32) (Wfx : FVec Ideal SWt .f32) (bfx : FVec Ideal SBias .f32)
    (Wcx : FVec Ideal SWt .f32) (bcx : FVec Ideal SBias .f32) (Wox : FVec Ideal SWt .f32) (box : FVec Ideal SBias .f32)
    (Wih : FVec Ideal SWt .f32) (bih : FVec Ideal SBias .f32) (Wfh : FVec Ideal SWt .f32) (bfh : FVec Ideal SBias .f32)
    (Wch : FVec Ideal SWt .f32) (bch : FVec Ideal SBias .f32) (Woh : FVec Ideal SWt .f32) (boh : FVec Ideal SBias .f32) :
    FVec Ideal SAct .f32 := fun i =>
  Ideal.tanh (gate x h Wcx bcx Wch bch (i 0) (i 1)) * gate x h Wix bix Wih bih (i 0) (i 1)
    + c i * gate x h Wfx bfx Wfh bfh (i 0) (i 1)

/-- The new hidden state `h' = o · tanh c'`. -/
def hNext (x h c : FVec Ideal SAct .f32)
    (Wix : FVec Ideal SWt .f32) (bix : FVec Ideal SBias .f32) (Wfx : FVec Ideal SWt .f32) (bfx : FVec Ideal SBias .f32)
    (Wcx : FVec Ideal SWt .f32) (bcx : FVec Ideal SBias .f32) (Wox : FVec Ideal SWt .f32) (box : FVec Ideal SBias .f32)
    (Wih : FVec Ideal SWt .f32) (bih : FVec Ideal SBias .f32) (Wfh : FVec Ideal SWt .f32) (bfh : FVec Ideal SBias .f32)
    (Wch : FVec Ideal SWt .f32) (bch : FVec Ideal SBias .f32) (Woh : FVec Ideal SWt .f32) (boh : FVec Ideal SBias .f32) :
    FVec Ideal SAct .f32 := fun i =>
  gate x h Wox box Woh boh (i 0) (i 1)
    * Ideal.tanh (cNext x h c Wix bix Wfx bfx Wcx bcx Wox box Wih bih Wfh bfh Wch bch Woh boh i)

end Cert.LstmSpec

end
-- ==== Proof.CellBlock.lean ====
/-
  One block of the cell, read at an index.

  At a grid point the body holds six blocks: 256 rows of x and of h (`a`, `b`), the same rows of c_prev (`c`), the
  two wide weight matrices (`wx`, `wh`: 1024 × 4096, column `1024·g + j` holding gate `g`'s weights of unit `j`) and
  the bias row (`bias`: 1 × 4096). Its arithmetic is
      z[p, n]  = (Σ_k a[p,k]·wx[k,n] + Σ_k b[p,k]·wh[k,n]) + bias[0,n]
      c'[p, j] = tanh z[p, 2048+j] · z[p, j] + c[p, j] · z[p, 1024+j]
      h'[p, j] = z[p, 3072+j] · tanh c'[p, j]
  (a product into a zero accumulator is the plain sum; a cast that keeps the shape is the identity; a row broadcast
  reads row 0; a column slice reads the columns from its offset on).
-/
import proofs.«147148_j78855599554847_2_alg».proof.Proof.Spec
import proofs.«147148_j78855599554847_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.CellBlock

open Idealize.ShloMosaic Idealize.ShloMosaic.TcCoe Idealize.ShloMosaic.ValueIdx
open Cert.KernelIdeal Cert.KernelIdeal.Gen
open scoped BigOperators

/-- The contraction of a 256 × 1024 block with a 1024 × 4096 matrix. -/
abbrev D := dot_S256x1024_S1024x4096_S256x4096_1_0_0_1_n_n

theorem lhs0 (i : S256x4096.Idx) (q : D.contr.Idx) : (D.lhsIdx i q 0).val = (i 0).val := by
  unfold DotDims.lhsIdx
  rw [dif_neg (show ¬(0 : Fin S256x1024.rank) ∈ D.lhsBatch by decide), dif_pos (show (0 : Fin S256x1024.rank) ∈ D.lhsNonContracting by decide)]
  rfl
theorem lhs1 (i : S256x4096.Idx) (q : D.contr.Idx) : (D.lhsIdx i q 1).val = (q ⟨0, by decide⟩).val :=
  D.lhsIdx_val_of_single rfl i q
theorem rhs0 (i : S256x4096.Idx) (q : D.contr.Idx) : (D.rhsIdx i q 0).val = (q ⟨0, by decide⟩).val :=
  D.rhsIdx_val_of_single rfl i q
theorem rhs1 (i : S256x4096.Idx) (q : D.contr.Idx) : (D.rhsIdx i q 1).val = (i 1).val := by
  unfold DotDims.rhsIdx
  rw [dif_neg (show ¬(1 : Fin S1024x4096.rank) ∈ D.rhsBatch by decide), dif_pos (show (1 : Fin S1024x4096.rank) ∈ D.rhsNonContracting by decide)]
  rfl

/-- A block's product with a wide matrix into a zero accumulator, at row `p`, column `n`: the sum over the 1024
    contracted coordinates. -/
theorem matmul_at (a : FVec Ideal S256x1024 .bf16) (w : FVec Ideal S1024x4096 .bf16) (p : Fin 256) (n : Fin 4096) :
    matmul D none a w (constant (F := Ideal) S256x4096 .f32 0x00000000#32) (ix2 p n)
      = ∑ k : Fin 1024, a (ix2 p k) * w (ix2 k n) := by
  refine (Ideal.matmul_constant_zero_apply D none a w (ix2 p n)).trans ?_
  rw [← Equiv.sum_comp (contrEquiv1 D 1024 rfl rfl).symm]
  refine Finset.sum_congr rfl fun k _ => ?_
  have hk := contrEquiv1_symm_val D 1024 rfl rfl k
  have el : D.lhsIdx (ix2 p n) ((contrEquiv1 D 1024 rfl rfl).symm k) = ix2 p k := funext fun a => Fin.ext (by
    match a with
    | ⟨0, _⟩ => exact lhs0 _ _
    | ⟨1, _⟩ => exact (lhs1 _ _).trans hk)
  have er : D.rhsIdx (ix2 p n) ((contrEquiv1 D 1024 rfl rfl).symm k) = ix2 k n := funext fun a => Fin.ext (by
    match a with
    | ⟨0, _⟩ => exact (rhs0 _ _).trans hk
    | ⟨1, _⟩ => exact rhs1 _ _)
  rw [el, er]

/-- The bias row broadcast over the block's 256 rows reads row 0. -/
theorem bias_row (bias : Vec Ideal S1x4096 .f32) (p : Fin 256) (n : Fin 4096) :
    broadcastTo S256x4096 bias broadcasts_S1x4096_S256x4096 (ix2 p n) = bias (ix2 0 n) :=
  broadcastTo_apply bias broadcasts_S1x4096_S256x4096 (ix2 p n) (ix2 0 n) (fun a => by
    match a with
    | ⟨0, _⟩ => rfl
    | ⟨1, _⟩ => rfl)

/-- The pre-activation of all four gates at row `p`, column `n`. -/
theorem z_at (a b : Vec Ideal S256x1024 .bf16) (wx wh : Vec Ideal S1024x4096 .bf16) (bias : Vec Ideal S1x4096 .f32)
    (p : Fin 256) (n : Fin 4096) :
    k0_pay1 (F := Ideal) a b wx wh bias (ix2 p n)
      = ((∑ k : Fin 1024, a (ix2 p k) * wx (ix2 k n)) + (∑ k : Fin 1024, b (ix2 p k) * wh (ix2 k n))) + bias (ix2 0 n) := by
  unfold k0_pay1
  simp only [shapeCast_self]
  refine (addf_apply _ _ _).trans ?_
  refine congrArg₂ (· + ·) ((addf_apply _ _ _).trans (congrArg₂ (· + ·) (matmul_at a wx p n) (matmul_at b wh p n))) (bias_row bias p n)

/-! ## Rows of a block, columns of the fused matrices -/

/-- Row `p` of block `T` is row `256·T + p` of the batch. -/
abbrev row (T : Fin 64) (p : Fin 256) : Fin 16384 := ⟨256 * T.val + p.val, by have := T.isLt; have := p.isLt; omega⟩
/-- Column `o + j` of the 4096 fused columns: unit `j` of the gate whose columns start at `o`. -/
abbrev col (o : Nat) (ho : o + 1024 ≤ 4096) (j : Fin 1024) : Fin 4096 := ⟨o + j.val, by have := j.isLt; omega⟩

/-- A slice of 1024 columns from column `o` on reads column `o + j`. -/
theorem slice_at (z : FVec Ideal S256x4096 .f32) (o : Nat) (ho : o + 1024 ≤ 4096) (h : S256x4096.Slices ![0, o] S256x1024)
    (p : Fin 256) (j : Fin 1024) :
    extractStridedSlice S256x1024 ![0, o] z h (ix2 p j) = z (ix2 p (col o ho j)) :=
  extractStridedSlice_apply ![0, o] z h (ix2 p j) (ix2 p (col o ho j)) (fun a => by
    match a with
    | ⟨0, _⟩ => exact (Nat.zero_add _).symm
    | ⟨1, _⟩ => rfl)

/-- The new cell state's payload at row `p`, unit `j`, from the pre-activations. -/
theorem cell_at (a b : Vec Ideal S256x1024 .bf16) (c : Vec Ideal S256x1024 .f32) (wx wh : Vec Ideal S1024x4096 .bf16) (bias : Vec Ideal S1x4096 .f32) (p : Fin 256) (j : Fin 1024) :
    k0_pay2 (F := Ideal) a b c wx wh bias (ix2 p j)
      = Ideal.tanh (k0_pay1 (F := Ideal) a b wx wh bias (ix2 p (col 2048 (by decide) j)))
          * k0_pay1 (F := Ideal) a b wx wh bias (ix2 p (col 0 (by decide) j))
        + c (ix2 p j) * k0_pay1 (F := Ideal) a b wx wh bias (ix2 p (col 1024 (by decide) j)) := by
  unfold k0_pay2
  exact congrArg₂ (· + ·)
    (congrArg₂ (· * ·) (congrArg Ideal.tanh (slice_at _ 2048 (by decide) _ p j)) (slice_at _ 0 (by decide) _ p j))
    (congrArg (c (ix2 p j) * ·) (slice_at _ 1024 (by decide) _ p j))

/-- The new hidden state's payload at row `p`, unit `j`. -/
theorem hidden_at (a b : Vec Ideal S256x1024 .bf16) (c : Vec Ideal S256x1024 .f32) (wx wh : Vec Ideal S1024x4096 .bf16) (bias : Vec Ideal S1x4096 .f32) (p : Fin 256) (j : Fin 1024) :
    k0_pay3 (F := Ideal) a b c wx wh bias (ix2 p j)
      = k0_pay1 (F := Ideal) a b wx wh bias (ix2 p (col 3072 (by decide) j))
          * Ideal.tanh (k0_pay2 (F := Ideal) a b c wx wh bias (ix2 p j)) := by
  unfold k0_pay3
  exact congrArg (· * Ideal.tanh (k0_pay2 (F := Ideal) a b c wx wh bias (ix2 p j))) (slice_at _ 3072 (by decide) _ p j)

/-! ## A block against the specification -/

open Cert.LstmSpec

/-- One gate: if the blocks `a`, `b` are rows `256·T …` of `X`, `H`, and the columns from `o` on of the fused matrices and of
    the bias row hold this gate's transposed weights and summed biases, the pre-activation at column `o + j` is the
    specification's gate. -/
theorem gate_at (X H : FVec Ideal SAct .f32) (Wx : FVec Ideal SWt .f32) (bx : FVec Ideal SBias .f32) (Wh : FVec Ideal SWt .f32) (bh : FVec Ideal SBias .f32)
    (T : Fin 64) (a b : Vec Ideal S256x1024 .bf16) (wx wh : Vec Ideal S1024x4096 .bf16) (bias : Vec Ideal S1x4096 .f32)
    (o : Nat) (ho : o + 1024 ≤ 4096)
    (ha : ∀ (p : Fin 256) (k : Fin 1024), a (ix2 p k) = X (ix2 (row T p) k))
    (hb : ∀ (p : Fin 256) (k : Fin 1024), b (ix2 p k) = H (ix2 (row T p) k))
    (hwx : ∀ k j : Fin 1024, wx (ix2 k (col o ho j)) = Wx (ix2 j k))
    (hwh : ∀ k j : Fin 1024, wh (ix2 k (col o ho j)) = Wh (ix2 j k))
    (hbias : ∀ j : Fin 1024, bias (ix2 (0 : Fin 1) (col o ho j)) = bx (ix1 j) + bh (ix1 j))
    (p : Fin 256) (j : Fin 1024) :
    k0_pay1 (F := Ideal) a b wx wh bias (ix2 p (col o ho j)) = gate X H Wx bx Wh bh (row T p) j := by
  rw [z_at]
  unfold gate
  simp only [ha, hb, hwx, hwh, hbias]

/-- What it is for six blocks to be block `T` of the nineteen arguments as the region finds them: rows of x, h, c_prev;
    the four gates' transposed weights side by side; the four gates' summed biases side by side. -/
structure IsBlock (X H C : FVec Ideal SAct .f32)
    (Wix : FVec Ideal SWt .f32) (bix : FVec Ideal SBias .f32) (Wfx : FVec Ideal SWt .f32) (bfx : FVec Ideal SBias .f32)
    (Wcx : FVec Ideal SWt .f32) (bcx : FVec Ideal SBias .f32) (Wox : FVec Ideal SWt .f32) (box : FVec Ideal SBias .f32)
    (Wih : FVec Ideal SWt .f32) (bih : FVec Ideal SBias .f32) (Wfh : FVec Ideal SWt .f32) (bfh : FVec Ideal SBias .f32)
    (Wch : FVec Ideal SWt .f32) (bch : FVec Ideal SBias .f32) (Woh : FVec Ideal SWt .f32) (boh : FVec Ideal SBias .f32)
    (T : Fin 64) (a b : Vec Ideal S256x1024 .bf16) (c : Vec Ideal S256x1024 .f32) (wx wh : Vec Ideal S1024x4096 .bf16) (bias : Vec Ideal S1x4096 .f32) : Prop where
  ha : ∀ (p : Fin 256) (k : Fin 1024), a (ix2 p k) = X (ix2 (row T p) k)
  hb : ∀ (p : Fin 256) (k : Fin 1024), b (ix2 p k) = H (ix2 (row T p) k)
  hc : ∀ (p : Fin 256) (j : Fin 1024), c (ix2 p j) = C (ix2 (row T p) j)
  wx_i : ∀ k j : Fin 1024, wx (ix2 k (col 0 (by decide) j)) = Wix (ix2 j k)
  wx_f : ∀ k j : Fin 1024, wx (ix2 k (col 1024 (by decide) j)) = Wfx (ix2 j k)
  wx_c : ∀ k j : Fin 1024, wx (ix2 k (col 2048 (by decide) j)) = Wcx (ix2 j k)
  wx_o : ∀ k j : Fin 1024, wx (ix2 k (col 3072 (by decide) j)) = Wox (ix2 j k)
  wh_i : ∀ k j : Fin 1024, wh (ix2 k (col 0 (by decide) j)) = Wih (ix2 j k)
  wh_f : ∀ k j : Fin 1024, wh (ix2 k (col 1024 (by decide) j)) = Wfh (ix2 j k)
  wh_c : ∀ k j : Fin 1024, wh (ix2 k (col 2048 (by decide) j)) = Wch (ix2 j k)
  wh_o : ∀ k j : Fin 1024, wh (ix2 k (col 3072 (by decide) j)) = Woh (ix2 j k)
  b_i : ∀ j : Fin 1024, bias (ix2 (0 : Fin 1) (col 0 (by decide) j)) = bix (ix1 j) + bih (ix1 j)
  b_f : ∀ j : Fin 1024, bias (ix2 (0 : Fin 1) (col 1024 (by decide) j)) = bfx (ix1 j) + bfh (ix1 j)
  b_c : ∀ j : Fin 1024, bias (ix2 (0 : Fin 1) (col 2048 (by decide) j)) = bcx (ix1 j) + bch (ix1 j)
  b_o : ∀ j : Fin 1024, bias (ix2 (0 : Fin 1) (col 3072 (by decide) j)) = box (ix1 j) + boh (ix1 j)

/-- The body's new cell state of block `T` is the specification's at the block's rows. -/
theorem block_cNext (X H C : FVec Ideal SAct .f32)
    (Wix : FVec Ideal SWt .f32) (bix : FVec Ideal SBias .f32) (Wfx : FVec Ideal SWt .f32) (bfx : FVec Ideal SBias .f32)
    (Wcx : FVec Ideal SWt .f32) (bcx : FVec Ideal SBias .f32) (Wox : FVec Ideal SWt .f32) (box : FVec Ideal SBias .f32)
    (Wih : FVec Ideal SWt .f32) (bih : FVec Ideal SBias .f32) (Wfh : FVec Ideal SWt .f32) (bfh : FVec Ideal SBias .f32)
    (Wch : FVec Ideal SWt .f32) (bch : FVec Ideal SBias .f32) (Woh : FVec Ideal SWt .f32) (boh : FVec Ideal SBias .f32)
    (T : Fin 64) (a b : Vec Ideal S256x1024 .bf16) (c : Vec Ideal S256x1024 .f32) (wx wh : Vec Ideal S1024x4096 .bf16) (bias : Vec Ideal S1x4096 .f32)
    (hB : IsBlock X H C Wix bix Wfx bfx Wcx bcx Wox box Wih bih Wfh bfh Wch bch Woh boh T a b c wx wh bias) (p : Fin 256) (j : Fin 1024) :
    k0_pay2 (F := Ideal) a b c wx wh bias (ix2 p j) = cNext X H C Wix bix Wfx bfx Wcx bcx Wox box Wih bih Wfh bfh Wch bch Woh boh (ix2 (row T p) j) := by
  rw [cell_at,
    gate_at X H Wcx bcx Wch bch T a b wx wh bias 2048 (by decide) hB.ha hB.hb hB.wx_c hB.wh_c hB.b_c p j,
    gate_at X H Wix bix Wih bih T a b wx wh bias 0 (by decide) hB.ha hB.hb hB.wx_i hB.wh_i hB.b_i p j,
    gate_at X H Wfx bfx Wfh bfh T a b wx wh bias 1024 (by decide) hB.ha hB.hb hB.wx_f hB.wh_f hB.b_f p j,
    hB.hc]
  rfl

/-- The body's new hidden state of block `T` is the specification's at the block's rows. -/
theorem block_hNext (X H C : FVec Ideal SAct .f32)
    (Wix : FVec Ideal SWt .f32) (bix : FVec Ideal SBias .f32) (Wfx : FVec Ideal SWt .f32) (bfx : FVec Ideal SBias .f32)
    (Wcx : FVec Ideal SWt .f32) (bcx : FVec Ideal SBias .f32) (Wox : FVec Ideal SWt .f32) (box : FVec Ideal SBias .f32)
    (Wih : FVec Ideal SWt .f32) (bih : FVec Ideal SBias .f32) (Wfh : FVec Ideal SWt .f32) (bfh : FVec Ideal SBias .f32)
    (Wch : FVec Ideal SWt .f32) (bch : FVec Ideal SBias .f32) (Woh : FVec Ideal SWt .f32) (boh : FVec Ideal SBias .f32)
    (T : Fin 64) (a b : Vec Ideal S256x1024 .bf16) (c : Vec Ideal S256x1024 .f32) (wx wh : Vec Ideal S1024x4096 .bf16) (bias : Vec Ideal S1x4096 .f32)
    (hB : IsBlock X H C Wix bix Wfx bfx Wcx bcx Wox box Wih bih Wfh bfh Wch bch Woh boh T a b c wx wh bias) (p : Fin 256) (j : Fin 1024) :
    k0_pay3 (F := Ideal) a b c wx wh bias (ix2 p j) = hNext X H C Wix bix Wfx bfx Wcx bcx Wox box Wih bih Wfh bfh Wch bch Woh boh (ix2 (row T p) j) := by
  rw [hidden_at, block_cNext X H C Wix bix Wfx bfx Wcx bcx Wox box Wih bih Wfh bfh Wch bch Woh boh T a b c wx wh bias hB p j,
    gate_at X H Wox box Woh boh T a b wx wh bias 3072 (by decide) hB.ha hB.hb hB.wx_o hB.wh_o hB.b_o p j]
  rfl

end Cert.CellBlock

end
-- ==== Proof.HostFused.lean ====
import proofs.«147148_j78855599554847_2_alg».proof.Proof.Gen.KernelIdeal
import Idealize.ShloMosaic.Lib.Pipeline.Value
import Idealize.ShloMosaic.Lib.ValueIdx
import Idealize.ShloMosaic.Lib.ValueLayout

/-
  The fused operands the kernel program prepares before its region, read at an index.

  The four weight matrices of one side are each transposed, laid side by side along the column axis into one
  1024 × 4096 matrix and cast to bf16 (the cast changes nothing on the extended reals). Column `1024·g + j` of
  that matrix, at row `k`, is therefore entry `(j, k)` of the g-th weight matrix.

  The four pairwise bias sums are laid end to end into one vector of 4096 and reshaped to 1 × 4096. Its entry
  `1024·g + j` of the only row is the sum of the g-th pair of biases at unit `j`.
-/

noncomputable section

namespace Cert.HostFused

open Cert.KernelIdeal Cert.KernelIdeal.Gen
open Idealize.ShloMosaic Idealize.ShloMosaic.ValueIdx

/-! ### The fused weight matrix -/

/-- Row `k`, column `0 + j` of the fused weight matrix is entry `(j, k)` of weight matrix 0. -/
theorem wide_g0 (W0 W1 W2 W3 : FVec Ideal S1024x1024 .f32) (k j : Fin 1024) :
    truncf .bf16 (concatenate S1024x4096 1 [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩] concatenates_S1024x1024_S1024x1024_S1024x1024_S1024x1024_S1024x4096_d1) bitsLt_bf16_f32 (ix2 k (⟨0 + j.val, by have := j.isLt; omega⟩ : Fin 4096)) = W0 (ix2 j k) := by
  rw [truncf_apply]
  refine (concatenate_apply_piece (t := S1024x4096) (1 : Fin 2)
    [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩]
    concatenates_S1024x1024_S1024x1024_S1024x1024_S1024x1024_S1024x4096_d1 _ 0 (by show (0 : Nat) < 4; decide) S1024x1024 (transpose S1024x1024 [1, 0] W0 transposes_S1024x1024_S1024x1024_1_0) rfl rfl 0 rfl (ix2 k j) ?_ ?_).trans ?_
  · intro b hb
    match b with
    | ⟨0, _⟩ => rfl
    | ⟨1, _⟩ => exact absurd rfl hb
  · rfl
  · exact transpose_apply [1, 0] W0 transposes_S1024x1024_S1024x1024_1_0 (ix2 k j) (ix2 j k) (fun b => match b with
      | ⟨0, _⟩ => rfl
      | ⟨1, _⟩ => rfl)

/-- Row `k`, column `1024 + j` of the fused weight matrix is entry `(j, k)` of weight matrix 1. -/
theorem wide_g1 (W0 W1 W2 W3 : FVec Ideal S1024x1024 .f32) (k j : Fin 1024) :
    truncf .bf16 (concatenate S1024x4096 1 [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩] concatenates_S1024x1024_S1024x1024_S1024x1024_S1024x1024_S1024x4096_d1) bitsLt_bf16_f32 (ix2 k (⟨1024 + j.val, by have := j.isLt; omega⟩ : Fin 4096)) = W1 (ix2 j k) := by
  rw [truncf_apply]
  refine (concatenate_apply_piece (t := S1024x4096) (1 : Fin 2)
    [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩]
    concatenates_S1024x1024_S1024x1024_S1024x1024_S1024x1024_S1024x4096_d1 _ 1 (by show (1 : Nat) < 4; decide) S1024x1024 (transpose S1024x1024 [1, 0] W1 transposes_S1024x1024_S1024x1024_1_0) rfl rfl 1024 rfl (ix2 k j) ?_ ?_).trans ?_
  · intro b hb
    match b with
    | ⟨0, _⟩ => rfl
    | ⟨1, _⟩ => exact absurd rfl hb
  · rfl
  · exact transpose_apply [1, 0] W1 transposes_S1024x1024_S1024x1024_1_0 (ix2 k j) (ix2 j k) (fun b => match b with
      | ⟨0, _⟩ => rfl
      | ⟨1, _⟩ => rfl)

/-- Row `k`, column `2048 + j` of the fused weight matrix is entry `(j, k)` of weight matrix 2. -/
theorem wide_g2 (W0 W1 W2 W3 : FVec Ideal S1024x1024 .f32) (k j : Fin 1024) :
    truncf .bf16 (concatenate S1024x4096 1 [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩] concatenates_S1024x1024_S1024x1024_S1024x1024_S1024x1024_S1024x4096_d1) bitsLt_bf16_f32 (ix2 k (⟨2048 + j.val, by have := j.isLt; omega⟩ : Fin 4096)) = W2 (ix2 j k) := by
  rw [truncf_apply]
  refine (concatenate_apply_piece (t := S1024x4096) (1 : Fin 2)
    [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩]
    concatenates_S1024x1024_S1024x1024_S1024x1024_S1024x1024_S1024x4096_d1 _ 2 (by show (2 : Nat) < 4; decide) S1024x1024 (transpose S1024x1024 [1, 0] W2 transposes_S1024x1024_S1024x1024_1_0) rfl rfl 2048 rfl (ix2 k j) ?_ ?_).trans ?_
  · intro b hb
    match b with
    | ⟨0, _⟩ => rfl
    | ⟨1, _⟩ => exact absurd rfl hb
  · rfl
  · exact transpose_apply [1, 0] W2 transposes_S1024x1024_S1024x1024_1_0 (ix2 k j) (ix2 j k) (fun b => match b with
      | ⟨0, _⟩ => rfl
      | ⟨1, _⟩ => rfl)

/-- Row `k`, column `3072 + j` of the fused weight matrix is entry `(j, k)` of weight matrix 3. -/
theorem wide_g3 (W0 W1 W2 W3 : FVec Ideal S1024x1024 .f32) (k j : Fin 1024) :
    truncf .bf16 (concatenate S1024x4096 1 [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩] concatenates_S1024x1024_S1024x1024_S1024x1024_S1024x1024_S1024x4096_d1) bitsLt_bf16_f32 (ix2 k (⟨3072 + j.val, by have := j.isLt; omega⟩ : Fin 4096)) = W3 (ix2 j k) := by
  rw [truncf_apply]
  refine (concatenate_apply_piece (t := S1024x4096) (1 : Fin 2)
    [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩]
    concatenates_S1024x1024_S1024x1024_S1024x1024_S1024x1024_S1024x4096_d1 _ 3 (by show (3 : Nat) < 4; decide) S1024x1024 (transpose S1024x1024 [1, 0] W3 transposes_S1024x1024_S1024x1024_1_0) rfl rfl 3072 rfl (ix2 k j) ?_ ?_).trans ?_
  · intro b hb
    match b with
    | ⟨0, _⟩ => rfl
    | ⟨1, _⟩ => exact absurd rfl hb
  · rfl
  · exact transpose_apply [1, 0] W3 transposes_S1024x1024_S1024x1024_1_0 (ix2 k j) (ix2 j k) (fun b => match b with
      | ⟨0, _⟩ => rfl
      | ⟨1, _⟩ => rfl)

/-- Row `k`, column `j` of the fused weight matrix is entry `(j, k)` of weight matrix 0. -/
theorem wide_g0' (W0 W1 W2 W3 : FVec Ideal S1024x1024 .f32) (k j : Fin 1024) :
    truncf .bf16 (concatenate S1024x4096 1 [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩] concatenates_S1024x1024_S1024x1024_S1024x1024_S1024x1024_S1024x4096_d1) bitsLt_bf16_f32 (ix2 k (⟨j.val, by have := j.isLt; omega⟩ : Fin 4096)) = W0 (ix2 j k) := by
  rw [truncf_apply]
  refine (concatenate_apply_piece (t := S1024x4096) (1 : Fin 2)
    [⟨S1024x1024, transpose S1024x1024 [1, 0] W0 transposes_S1024x1024_S1024x1024_1_0⟩, ⟨S1024x1024, transpose S1024x1024 [1, 0] W1 transposes_S1024x1024_S1024x1024_1_0⟩, ⟨S1024x1024, transpose S1024x1024 [1, 0] W2 transposes_S1024x1024_S1024x1024_1_0⟩, ⟨S1024x1024, transpose S1024x1024 [1, 0] W3 transposes_S1024x1024_S1024x1024_1_0⟩]
    concatenates_S1024x1024_S1024x1024_S1024x1024_S1024x1024_S1024x4096_d1 _ 0 (by show (0 : Nat) < 4; decide) S1024x1024 (transpose S1024x1024 [1, 0] W0 transposes_S1024x1024_S1024x1024_1_0) rfl rfl 0 rfl (ix2 k j) ?_ ?_).trans ?_
  · intro b hb
    match b with
    | ⟨0, _⟩ => rfl
    | ⟨1, _⟩ => exact absurd rfl hb
  · exact Nat.zero_add _
  · exact transpose_apply [1, 0] W0 transposes_S1024x1024_S1024x1024_1_0 (ix2 k j) (ix2 j k) (fun b => match b with
      | ⟨0, _⟩ => rfl
      | ⟨1, _⟩ => rfl)

/-! ### The fused bias row -/

/-- Entry `0 + j` of the fused bias row is the sum of the two biases of pair 0 at unit `j`. -/
theorem bias_g0 (a0 a1 a2 a3 b0 b1 b2 b3 : FVec Ideal S1024 .f32) (j : Fin 1024) :
    shapeCast S1x4096 (concatenate S4096 0 [⟨S1024, addf a0 b0⟩, ⟨S1024, addf a1 b1⟩, ⟨S1024, addf a2 b2⟩, ⟨S1024, addf a3 b3⟩] concatenates_S1024_S1024_S1024_S1024_S4096_d0) shapeCasts_S4096_S1x4096 (ix2 (0 : Fin 1) (⟨0 + j.val, by have := j.isLt; omega⟩ : Fin 4096)) = a0 (ix1 j) + b0 (ix1 j) := by
  refine (shapeCast_apply _ shapeCasts_S4096_S1x4096 _ (ix1 (⟨0 + j.val, by have := j.isLt; omega⟩ : Fin 4096)) (by
    rw [Shape.rowMajor_val_two, Shape.rowMajor_val_one]
    show 0 + j.val = 0 * 4096 + (0 + j.val)
    omega)).trans ?_
  refine (concatenate_apply_piece (t := S4096) (0 : Fin 1)
    [⟨S1024, addf a0 b0⟩, ⟨S1024, addf a1 b1⟩, ⟨S1024, addf a2 b2⟩, ⟨S1024, addf a3 b3⟩]
    concatenates_S1024_S1024_S1024_S1024_S4096_d0 _ 0 (by show (0 : Nat) < 4; decide) S1024 (addf a0 b0) rfl rfl 0 rfl (ix1 j) ?_ ?_).trans ?_
  · intro b hb
    match b with
    | ⟨0, _⟩ => exact absurd rfl hb
  · rfl
  · rfl

/-- Entry `1024 + j` of the fused bias row is the sum of the two biases of pair 1 at unit `j`. -/
theorem bias_g1 (a0 a1 a2 a3 b0 b1 b2 b3 : FVec Ideal S1024 .f32) (j : Fin 1024) :
    shapeCast S1x4096 (concatenate S4096 0 [⟨S1024, addf a0 b0⟩, ⟨S1024, addf a1 b1⟩, ⟨S1024, addf a2 b2⟩, ⟨S1024, addf a3 b3⟩] concatenates_S1024_S1024_S1024_S1024_S4096_d0) shapeCasts_S4096_S1x4096 (ix2 (0 : Fin 1) (⟨1024 + j.val, by have := j.isLt; omega⟩ : Fin 4096)) = a1 (ix1 j) + b1 (ix1 j) := by
  refine (shapeCast_apply _ shapeCasts_S4096_S1x4096 _ (ix1 (⟨1024 + j.val, by have := j.isLt; omega⟩ : Fin 4096)) (by
    rw [Shape.rowMajor_val_two, Shape.rowMajor_val_one]
    show 1024 + j.val = 0 * 4096 + (1024 + j.val)
    omega)).trans ?_
  refine (concatenate_apply_piece (t := S4096) (0 : Fin 1)
    [⟨S1024, addf a0 b0⟩, ⟨S1024, addf a1 b1⟩, ⟨S1024, addf a2 b2⟩, ⟨S1024, addf a3 b3⟩]
    concatenates_S1024_S1024_S1024_S1024_S4096_d0 _ 1 (by show (1 : Nat) < 4; decide) S1024 (addf a1 b1) rfl rfl 1024 rfl (ix1 j) ?_ ?_).trans ?_
  · intro b hb
    match b with
    | ⟨0, _⟩ => exact absurd rfl hb
  · rfl
  · rfl

/-- Entry `2048 + j` of the fused bias row is the sum of the two biases of pair 2 at unit `j`. -/
theorem bias_g2 (a0 a1 a2 a3 b0 b1 b2 b3 : FVec Ideal S1024 .f32) (j : Fin 1024) :
    shapeCast S1x4096 (concatenate S4096 0 [⟨S1024, addf a0 b0⟩, ⟨S1024, addf a1 b1⟩, ⟨S1024, addf a2 b2⟩, ⟨S1024, addf a3 b3⟩] concatenates_S1024_S1024_S1024_S1024_S4096_d0) shapeCasts_S4096_S1x4096 (ix2 (0 : Fin 1) (⟨2048 + j.val, by have := j.isLt; omega⟩ : Fin 4096)) = a2 (ix1 j) + b2 (ix1 j) := by
  refine (shapeCast_apply _ shapeCasts_S4096_S1x4096 _ (ix1 (⟨2048 + j.val, by have := j.isLt; omega⟩ : Fin 4096)) (by
    rw [Shape.rowMajor_val_two, Shape.rowMajor_val_one]
    show 2048 + j.val = 0 * 4096 + (2048 + j.val)
    omega)).trans ?_
  refine (concatenate_apply_piece (t := S4096) (0 : Fin 1)
    [⟨S1024, addf a0 b0⟩, ⟨S1024, addf a1 b1⟩, ⟨S1024, addf a2 b2⟩, ⟨S1024, addf a3 b3⟩]
    concatenates_S1024_S1024_S1024_S1024_S4096_d0 _ 2 (by show (2 : Nat) < 4; decide) S1024 (addf a2 b2) rfl rfl 2048 rfl (ix1 j) ?_ ?_).trans ?_
  · intro b hb
    match b with
    | ⟨0, _⟩ => exact absurd rfl hb
  · rfl
  · rfl

/-- Entry `3072 + j` of the fused bias row is the sum of the two biases of pair 3 at unit `j`. -/
theorem bias_g3 (a0 a1 a2 a3 b0 b1 b2 b3 : FVec Ideal S1024 .f32) (j : Fin 1024) :
    shapeCast S1x4096 (concatenate S4096 0 [⟨S1024, addf a0 b0⟩, ⟨S1024, addf a1 b1⟩, ⟨S1024, addf a2 b2⟩, ⟨S1024, addf a3 b3⟩] concatenates_S1024_S1024_S1024_S1024_S4096_d0) shapeCasts_S4096_S1x4096 (ix2 (0 : Fin 1) (⟨3072 + j.val, by have := j.isLt; omega⟩ : Fin 4096)) = a3 (ix1 j) + b3 (ix1 j) := by
  refine (shapeCast_apply _ shapeCasts_S4096_S1x4096 _ (ix1 (⟨3072 + j.val, by have := j.isLt; omega⟩ : Fin 4096)) (by
    rw [Shape.rowMajor_val_two, Shape.rowMajor_val_one]
    show 3072 + j.val = 0 * 4096 + (3072 + j.val)
    omega)).trans ?_
  refine (concatenate_apply_piece (t := S4096) (0 : Fin 1)
    [⟨S1024, addf a0 b0⟩, ⟨S1024, addf a1 b1⟩, ⟨S1024, addf a2 b2⟩, ⟨S1024, addf a3 b3⟩]
    concatenates_S1024_S1024_S1024_S1024_S4096_d0 _ 3 (by show (3 : Nat) < 4; decide) S1024 (addf a3 b3) rfl rfl 3072 rfl (ix1 j) ?_ ?_).trans ?_
  · intro b hb
    match b with
    | ⟨0, _⟩ => exact absurd rfl hb
  · rfl
  · rfl

/-- Entry `j` of the fused bias row is the sum of the two biases of pair 0 at unit `j`. -/
theorem bias_g0' (a0 a1 a2 a3 b0 b1 b2 b3 : FVec Ideal S1024 .f32) (j : Fin 1024) :
    shapeCast S1x4096 (concatenate S4096 0 [⟨S1024, addf a0 b0⟩, ⟨S1024, addf a1 b1⟩, ⟨S1024, addf a2 b2⟩, ⟨S1024, addf a3 b3⟩] concatenates_S1024_S1024_S1024_S1024_S4096_d0) shapeCasts_S4096_S1x4096 (ix2 (0 : Fin 1) (⟨j.val, by have := j.isLt; omega⟩ : Fin 4096)) = a0 (ix1 j) + b0 (ix1 j) := by
  refine (shapeCast_apply _ shapeCasts_S4096_S1x4096 _ (ix1 (⟨j.val, by have := j.isLt; omega⟩ : Fin 4096)) (by
    rw [Shape.rowMajor_val_two, Shape.rowMajor_val_one]
    show j.val = 0 * 4096 + j.val
    omega)).trans ?_
  refine (concatenate_apply_piece (t := S4096) (0 : Fin 1)
    [⟨S1024, addf a0 b0⟩, ⟨S1024, addf a1 b1⟩, ⟨S1024, addf a2 b2⟩, ⟨S1024, addf a3 b3⟩]
    concatenates_S1024_S1024_S1024_S1024_S4096_d0 _ 0 (by show (0 : Nat) < 4; decide) S1024 (addf a0 b0) rfl rfl 0 rfl (ix1 j) ?_ ?_).trans ?_
  · intro b hb
    match b with
    | ⟨0, _⟩ => exact absurd rfl hb
  · exact Nat.zero_add _
  · rfl

end Cert.HostFused

end
-- ==== Proof.CellArray.lean ====
/-
  From blocks to arrays: what the two result arrays hold after the run, as the specification's functions of the
  nineteen argument arrays.
-/
import proofs.«147148_j78855599554847_2_alg».proof.Proof.IdealCellFrame
import proofs.«147148_j78855599554847_2_alg».proof.Proof.CellBlock
import proofs.«147148_j78855599554847_2_alg».proof.Proof.HostFused
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.CellArray

open Cert.KernelIdeal Cert.KernelIdeal.Gen Cert.KernelIdeal.Cell Cert.CellBlock Cert.LstmSpec

variable (m : (ℓ : Loc nD τ sig) → Buf (Elt Ideal) ℓ) (ρ : Dev nD → PrngReg)

/-! ## The region's six operands as the host operations leave them -/

/-- x, cast. -/
theorem V_x (c : Dev nD) : (V m c main_v18 : FVec Ideal S16384x1024 .bf16)
    = truncf (F := Ideal) .bf16 (m ((c : Thread nD τ).loc main_arg0) : FVec Ideal S16384x1024 .f32) bitsLt_bf16_f32 := by
  dsimp only [V]
  simp only [hostOps0, List.flatten_cons, List.flatten_nil, List.append_nil, List.cons_append, List.nil_append]
  after_results

/-- h, cast. -/
theorem V_h (c : Dev nD) : (V m c main_v19 : FVec Ideal S16384x1024 .bf16)
    = truncf (F := Ideal) .bf16 (m ((c : Thread nD τ).loc main_arg1) : FVec Ideal S16384x1024 .f32) bitsLt_bf16_f32 := by
  dsimp only [V]
  simp only [hostOps0, List.flatten_cons, List.flatten_nil, List.append_nil, List.cons_append, List.nil_append]
  after_results

/-- The x-side weights: the four transposed matrices side by side, cast. -/
theorem V_wx (c : Dev nD) : (V m c main_v5 : FVec Ideal S1024x4096 .bf16)
    = truncf (F := Ideal) .bf16 (concatenate S1024x4096 1 [⟨S1024x1024, transpose S1024x1024 [1, 0] (m ((c : Thread nD τ).loc main_arg3) : FVec Ideal S1024x1024 .f32) transposes_S1024x1024_S1024x1024_1_0⟩, ⟨S1024x1024, transpose S1024x1024 [1, 0] (m ((c : Thread nD τ).loc main_arg5) : FVec Ideal S1024x1024 .f32) transposes_S1024x1024_S1024x1024_1_0⟩, ⟨S1024x1024, transpose S1024x1024 [1, 0] (m ((c : Thread nD τ).loc main_arg7) : FVec Ideal S1024x1024 .f32) transposes_S1024x1024_S1024x1024_1_0⟩, ⟨S1024x1024, transpose S1024x1024 [1, 0] (m ((c : Thread nD τ).loc main_arg9) : FVec Ideal S1024x1024 .f32) transposes_S1024x1024_S1024x1024_1_0⟩] concatenates_S1024x1024_S1024x1024_S1024x1024_S1024x1024_S1024x4096_d1) bitsLt_bf16_f32 := by
  dsimp only [V]
  simp only [hostOps0, List.flatten_cons, List.flatten_nil, List.append_nil, List.cons_append, List.nil_append]
  after_results_simp
  rfl

/-- The h-side weights likewise. -/
theorem V_wh (c : Dev nD) : (V m c main_v11 : FVec Ideal S1024x4096 .bf16)
    = truncf (F := Ideal) .bf16 (concatenate S1024x4096 1 [⟨S1024x1024, transpose S1024x1024 [1, 0] (m ((c : Thread nD τ).loc main_arg11) : FVec Ideal S1024x1024 .f32) transposes_S1024x1024_S1024x1024_1_0⟩, ⟨S1024x1024, transpose S1024x1024 [1, 0] (m ((c : Thread nD τ).loc main_arg13) : FVec Ideal S1024x1024 .f32) transposes_S1024x1024_S1024x1024_1_0⟩, ⟨S1024x1024, transpose S1024x1024 [1, 0] (m ((c : Thread nD τ).loc main_arg15) : FVec Ideal S1024x1024 .f32) transposes_S1024x1024_S1024x1024_1_0⟩, ⟨S1024x1024, transpose S1024x1024 [1, 0] (m ((c : Thread nD τ).loc main_arg17) : FVec Ideal S1024x1024 .f32) transposes_S1024x1024_S1024x1024_1_0⟩] concatenates_S1024x1024_S1024x1024_S1024x1024_S1024x1024_S1024x4096_d1) bitsLt_bf16_f32 := by
  dsimp only [V]
  simp only [hostOps0, List.flatten_cons, List.flatten_nil, List.append_nil, List.cons_append, List.nil_append]
  after_results_simp
  rfl

/-- The bias row: the four pairwise sums end to end, as one row. -/
theorem V_b (c : Dev nD) : (V m c main_v17 : FVec Ideal S1x4096 .f32)
    = (shapeCast S1x4096 (concatenate S4096 0 [⟨S1024, (addf (F := Ideal) (m ((c : Thread nD τ).loc main_arg4) : FVec Ideal S1024 .f32) (m ((c : Thread nD τ).loc main_arg12) : FVec Ideal S1024 .f32) : FVec Ideal S1024 .f32)⟩, ⟨S1024, (addf (F := Ideal) (m ((c : Thread nD τ).loc main_arg6) : FVec Ideal S1024 .f32) (m ((c : Thread nD τ).loc main_arg14) : FVec Ideal S1024 .f32) : FVec Ideal S1024 .f32)⟩, ⟨S1024, (addf (F := Ideal) (m ((c : Thread nD τ).loc main_arg8) : FVec Ideal S1024 .f32) (m ((c : Thread nD τ).loc main_arg16) : FVec Ideal S1024 .f32) : FVec Ideal S1024 .f32)⟩, ⟨S1024, (addf (F := Ideal) (m ((c : Thread nD τ).loc main_arg10) : FVec Ideal S1024 .f32) (m ((c : Thread nD τ).loc main_arg18) : FVec Ideal S1024 .f32) : FVec Ideal S1024 .f32)⟩] concatenates_S1024_S1024_S1024_S1024_S4096_d0) shapeCasts_S4096_S1x4096 : FVec Ideal S1x4096 .f32) := by
  dsimp only [V]
  simp only [hostOps0, List.flatten_cons, List.flatten_nil, List.append_nil, List.cons_append, List.nil_append]
  after_results_simp
  rfl

/-! ## Where the blocks sit -/

theorem hz : (![0, 0] : Fin 2 → Nat) = fun _ => 0 := funext fun a => by fin_cases a <;> rfl

/-- The row blocks of x, h, c_prev and of the two results move with the point; the weights and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A grid point as a block number. -/
abbrev pt (t : Fin cfg0.N) : Fin 64 := t.cast (show cfg0.N = 64 from N_0)

/-- Block `t` of x is rows `256·t …` of the cast x. -/
theorem blk_x (c : Dev nD) (t : Fin cfg0.N) (p : Fin 256) (k : Fin 1024) :
    (iblk m c 0 t : Vec Ideal S256x1024 .bf16) (ix2 p k) = (V m c main_v18 : FVec Ideal S16384x1024 .bf16) (ix2 (row (pt t) p) k) := by
  obtain ⟨e0, e1, -⟩ := idx_facts t
  unfold iblk
  rw [View.read_apply]
  show (V m c main_v18 : FVec Ideal S16384x1024 .bf16) _ = (V m c main_v18 : FVec Ideal S16384x1024 .bf16) _
  refine congrArg (V m c main_v18 : FVec Ideal S16384x1024 .bf16) ?_
  funext a
  apply Fin.ext
  match a with
  | ⟨0, _⟩ => show win0_0.index t 0 * 256 + 1 * p.val = 256 * t.val + p.val; rw [e0]; omega
  | ⟨1, _⟩ => show win0_0.index t 1 * 1024 + 1 * k.val = k.val; rw [e1]; omega

/-- Block `t` of h likewise. -/
theorem blk_h (c : Dev nD) (t : Fin cfg0.N) (p : Fin 256) (k : Fin 1024) :
    (iblk m c 1 t : Vec Ideal S256x1024 .bf16) (ix2 p k) = (V m c main_v19 : FVec Ideal S16384x1024 .bf16) (ix2 (row (pt t) p) k) := by
  obtain ⟨-, -, e0, e1, -⟩ := idx_facts t
  unfold iblk
  rw [View.read_apply]
  show (V m c main_v19 : FVec Ideal S16384x1024 .bf16) _ = (V m c main_v19 : FVec Ideal S16384x1024 .bf16) _
  refine congrArg (V m c main_v19 : FVec Ideal S16384x1024 .bf16) ?_
  funext a
  apply Fin.ext
  match a with
  | ⟨0, _⟩ => show win0_1.index t 0 * 256 + 1 * p.val = 256 * t.val + p.val; rw [e0]; omega
  | ⟨1, _⟩ => show win0_1.index t 1 * 1024 + 1 * k.val = k.val; rw [e1]; omega

/-- Block `t` of c_prev likewise. -/
theorem blk_c (c : Dev nD) (t : Fin cfg0.N) (p : Fin 256) (j : Fin 1024) :
    (iblk m c 2 t : Vec Ideal S256x1024 .f32) (ix2 p j) = (V m c main_arg2 : FVec Ideal S16384x1024 .f32) (ix2 (row (pt t) p) j) := by
  obtain ⟨-, -, -, -, e0, e1, -⟩ := idx_facts t
  unfold iblk
  rw [View.read_apply]
  show (V m c main_arg2 : FVec Ideal S16384x1024 .f32) _ = (V m c main_arg2 : FVec Ideal S16384x1024 .f32) _
  refine congrArg (V m c main_arg2 : FVec Ideal S16384x1024 .f32) ?_
  funext a
  apply Fin.ext
  match a with
  | ⟨0, _⟩ => show win0_2.index t 0 * 256 + 1 * p.val = 256 * t.val + p.val; rw [e0]; omega
  | ⟨1, _⟩ => show win0_2.index t 1 * 1024 + 1 * j.val = j.val; rw [e1]; omega

/-- The x-side weights' block is the whole fused matrix, at every point. -/
theorem blk_wx (c : Dev nD) (t : Fin cfg0.N) (k : Fin 1024) (n : Fin 4096) :
    (iblk m c 3 t : Vec Ideal S1024x4096 .bf16) (ix2 k n) = (V m c main_v5 : FVec Ideal S1024x4096 .bf16) (ix2 k n) := by
  obtain ⟨-, -, -, -, -, -, e0, e1, -⟩ := idx_facts t
  unfold iblk
  rw [View.read_apply]
  show (V m c main_v5 : FVec Ideal S1024x4096 .bf16) _ = (V m c main_v5 : FVec Ideal S1024x4096 .bf16) _
  refine congrArg (V m c main_v5 : FVec Ideal S1024x4096 .bf16) ?_
  funext a
  apply Fin.ext
  match a with
  | ⟨0, _⟩ => show win0_3.index t 0 * 1024 + 1 * k.val = k.val; rw [e0]; omega
  | ⟨1, _⟩ => show win0_3.index t 1 * 4096 + 1 * n.val = n.val; rw [e1]; omega

/-- The h-side weights' block likewise. -/
theorem blk_wh (c : Dev nD) (t : Fin cfg0.N) (k : Fin 1024) (n : Fin 4096) :
    (iblk m c 4 t : Vec Ideal S1024x4096 .bf16) (ix2 k n) = (V m c main_v11 : FVec Ideal S1024x4096 .bf16) (ix2 k n) := by
  obtain ⟨-, -, -, -, -, -, -, -, e0, e1, -⟩ := idx_facts t
  unfold iblk
  rw [View.read_apply]
  show (V m c main_v11 : FVec Ideal S1024x4096 .bf16) _ = (V m c main_v11 : FVec Ideal S1024x4096 .bf16) _
  refine congrArg (V m c main_v11 : FVec Ideal S1024x4096 .bf16) ?_
  funext a
  apply Fin.ext
  match a with
  | ⟨0, _⟩ => show win0_4.index t 0 * 1024 + 1 * k.val = k.val; rw [e0]; omega
  | ⟨1, _⟩ => show win0_4.index t 1 * 4096 + 1 * n.val = n.val; rw [e1]; omega

/-- The bias row's block is the whole row, at every point. -/
theorem blk_b (c : Dev nD) (t : Fin cfg0.N) (n : Fin 4096) :
    (iblk m c 5 t : Vec Ideal S1x4096 .f32) (ix2 (0 : Fin 1) n) = (V m c main_v17 : FVec Ideal S1x4096 .f32) (ix2 (0 : Fin 1) n) := by
  obtain ⟨-, -, -, -, -, -, -, -, -, -, e0, e1, -⟩ := idx_facts t
  unfold iblk
  rw [View.read_apply]
  show (V m c main_v17 : FVec Ideal S1x4096 .f32) _ = (V m c main_v17 : FVec Ideal S1x4096 .f32) _
  refine congrArg (V m c main_v17 : FVec Ideal S1x4096 .f32) ?_
  funext a
  apply Fin.ext
  match a with
  | ⟨0, _⟩ => show win0_5.index t 0 * 1 + 1 * 0 = 0; rw [e0]
  | ⟨1, _⟩ => show win0_5.index t 1 * 4096 + 1 * n.val = n.val; rw [e1]; omega

/-- The six blocks at point `t` are block `t` of the nineteen arguments. -/
theorem isBlock (c : Dev nD) (t : Fin cfg0.N) :
    IsBlock (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32)
      (pt t) (iblk m c 0 t) (iblk m c 1 t) (iblk m c 2 t) (iblk m c 3 t) (iblk m c 4 t) (iblk m c 5 t) where
  ha p k := (blk_x m c t p k).trans (congrFun (V_x m c) _)
  hb p k := (blk_h m c t p k).trans (congrFun (V_h m c) _)
  hc p j := (blk_c m c t p j).trans (congrFun (V_main_arg2 m c) _)
  wx_i k j := (blk_wx m c t k _).trans ((congrFun (V_wx m c) _).trans (Cert.HostFused.wide_g0 _ _ _ _ k j))
  wx_f k j := (blk_wx m c t k _).trans ((congrFun (V_wx m c) _).trans (Cert.HostFused.wide_g1 _ _ _ _ k j))
  wx_c k j := (blk_wx m c t k _).trans ((congrFun (V_wx m c) _).trans (Cert.HostFused.wide_g2 _ _ _ _ k j))
  wx_o k j := (blk_wx m c t k _).trans ((congrFun (V_wx m c) _).trans (Cert.HostFused.wide_g3 _ _ _ _ k j))
  wh_i k j := (blk_wh m c t k _).trans ((congrFun (V_wh m c) _).trans (Cert.HostFused.wide_g0 _ _ _ _ k j))
  wh_f k j := (blk_wh m c t k _).trans ((congrFun (V_wh m c) _).trans (Cert.HostFused.wide_g1 _ _ _ _ k j))
  wh_c k j := (blk_wh m c t k _).trans ((congrFun (V_wh m c) _).trans (Cert.HostFused.wide_g2 _ _ _ _ k j))
  wh_o k j := (blk_wh m c t k _).trans ((congrFun (V_wh m c) _).trans (Cert.HostFused.wide_g3 _ _ _ _ k j))
  b_i j := (blk_b m c t _).trans ((congrFun (V_b m c) _).trans (Cert.HostFused.bias_g0 _ _ _ _ _ _ _ _ j))
  b_f j := (blk_b m c t _).trans ((congrFun (V_b m c) _).trans (Cert.HostFused.bias_g1 _ _ _ _ _ _ _ _ j))
  b_c j := (blk_b m c t _).trans ((congrFun (V_b m c) _).trans (Cert.HostFused.bias_g2 _ _ _ _ _ _ _ _ j))
  b_o j := (blk_b m c t _).trans ((congrFun (V_b m c) _).trans (Cert.HostFused.bias_g3 _ _ _ _ _ _ _ _ j))

end Cert.KernelIdeal.CellArray

end
-- ==== Proof.CellCover.lean ====
import proofs.«147148_j78855599554847_2_alg».proof.Proof.Gen.KernelIdeal.Launch
import proofs.«147148_j78855599554847_2_alg».proof.Proof.Gen.KernelIdeal.Points
import Idealize.ShloMosaic.Lib.Pipeline.Value

/-
  The two output arrays of the kernel's region are covered by the blocks its grid points write back.

  The region runs over 64 grid points. At point `t` each of the two output windows writes back block `t` of its
  16384 × 1024 array: rows `256·t … 256·t + 255`, all 1024 columns. Hence an index `(r, c)` of either array lies
  in the block of exactly the point `t = r / 256`, and every index is written by some point.
-/

noncomputable section

namespace Cert.KernelIdeal.CellCover

open Cert.KernelIdeal Cert.KernelIdeal.Gen Idealize.ShloMosaic Idealize.ShloMosaic.TcCoe

/-- The block index of both output windows at grid point `t` is `(t, 0)` (decided over the 64 points). -/
theorem idx_out : ∀ t : Fin cfg0.N, win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- An index of output array 0 is in point `t`'s block iff each coordinate is in the block's range on its axis. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v20_0).slice (win0_6.rect t)).set ↔ _
  rw [View.set_slice_whole, Rect.mem_set_unit]
  exact Iff.rfl

/-- Every index `(r, c)` of output array 0 is in the block that point `r / 256` writes back. -/
theorem cover6 (i : S16384x1024.Idx) :
    ∃ t : Fin cfg0.N, (cfg0.win 6).flush t = true ∧ i ∈ ((cfg0.win 6).blk t).view.set := by
  have hN : cfg0.N = 64 := N_0
  have h0 : (i 0).val < 16384 := (i 0).isLt
  have h1 : (i 1).val < 1024 := (i 1).isLt
  obtain ⟨t, ht⟩ : ∃ t : Fin cfg0.N, t.val = (i 0).val / 256 := ⟨⟨(i 0).val / 256, by rw [hN]; omega⟩, rfl⟩
  obtain ⟨e0, e1, -, -⟩ := idx_out t
  refine ⟨t, flush0_6 t, ?_⟩
  rw [mem_blk6]
  intro a
  match a with
  | ⟨0, _⟩ =>
    show win0_6.index t 0 * 256 ≤ (i 0).val ∧ (i 0).val < win0_6.index t 0 * 256 + 256
    rw [e0, ht]
    omega
  | ⟨1, _⟩ =>
    show win0_6.index t 1 * 1024 ≤ (i 1).val ∧ (i 1).val < win0_6.index t 1 * 1024 + 1024
    rw [e1]
    omega

/-- An index of output array 1 is in point `t`'s block iff each coordinate is in the block's range on its axis. -/
theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v20_1).slice (win0_7.rect t)).set ↔ _
  rw [View.set_slice_whole, Rect.mem_set_unit]
  exact Iff.rfl

/-- Every index `(r, c)` of output array 1 is in the block that point `r / 256` writes back. -/
theorem cover7 (i : S16384x1024.Idx) :
    ∃ t : Fin cfg0.N, (cfg0.win 7).flush t = true ∧ i ∈ ((cfg0.win 7).blk t).view.set := by
  have hN : cfg0.N = 64 := N_0
  have h0 : (i 0).val < 16384 := (i 0).isLt
  have h1 : (i 1).val < 1024 := (i 1).isLt
  obtain ⟨t, ht⟩ : ∃ t : Fin cfg0.N, t.val = (i 0).val / 256 := ⟨⟨(i 0).val / 256, by rw [hN]; omega⟩, rfl⟩
  obtain ⟨-, -, e0, e1⟩ := idx_out t
  refine ⟨t, flush0_7 t, ?_⟩
  rw [mem_blk7]
  intro a
  match a with
  | ⟨0, _⟩ =>
    show win0_7.index t 0 * 256 ≤ (i 0).val ∧ (i 0).val < win0_7.index t 0 * 256 + 256
    rw [e0, ht]
    omega
  | ⟨1, _⟩ =>
    show win0_7.index t 1 * 1024 ≤ (i 1).val ∧ (i 1).val < win0_7.index t 1 * 1024 + 1024
    rw [e1]
    omega

end Cert.KernelIdeal.CellCover

end
-- ==== Proof.CellRun.lean ====
/-
  The run of the idealized kernel program, read: its two result arrays end at the specification's new hidden state
  and new cell state of the nineteen arguments, and the arguments end as launched.

  Point `t` writes back, for each result, the body's block — which is block `t` of the specification's function
  (the six input blocks are block `t` of the arguments as the host operations fused them) —, and the 64 blocks tile
  the 16384 rows, so each result array IS that function.
-/
import proofs.«147148_j78855599554847_2_alg».proof.Proof.CellArray
import proofs.«147148_j78855599554847_2_alg».proof.Proof.CellCover

noncomputable section

open Idealize.ShloMosaic Idealize.ShloMosaic.TcCoe Idealize.SL.Sem Idealize.ShloMosaic.ValueIdx
open Idealize.ShloMosaic.Pipeline (Dat)

namespace Cert.KernelIdeal.CellRun

open Cert.KernelIdeal Cert.KernelIdeal.Gen Cert.KernelIdeal.Cell Cert.CellBlock Cert.LstmSpec Cert.KernelIdeal.CellArray

variable (m : (ℓ : Loc nD τ sig) → Buf (Elt Ideal) ℓ) (ρ : Dev nD → PrngReg)

/-- What point `t` writes back to the new hidden state is block `t` of the specification's function of the arguments. -/
theorem flushed6_eq (c : Dev nD) (t : Fin cfg0.N) :
    (dats m 0 c).flushed 6 t = ((cfg0.win 6).blk t).view.read (Elt Ideal)
      (hNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32)) := by
  show (cfg0.win 6).cut (grid0.coords t) ((dats m 0 c).after 6 t) = _
  rw [after6]
  unfold outH
  rw [View.canon_unit_zero hz]
  simp only [View.ld_unit_zero (S := S256x1024) hz, View.ld_unit_zero (S := S1024x4096) hz, View.ld_unit_zero (S := S1x4096) hz]
  obtain ⟨e0, e1, e2, e3⟩ := Cert.KernelIdeal.CellCover.idx_out t
  funext y
  obtain ⟨p, j, rfl⟩ : ∃ (p : Fin 256) (j : Fin 1024), y = ix2 p j := ⟨y 0, y 1, eq_ix2 y⟩
  show k0_pay3 (F := Ideal) (iblk m c 0 t) (iblk m c 1 t) (iblk m c 2 t) (iblk m c 3 t) (iblk m c 4 t) (iblk m c 5 t) (ix2 p j)
    = hNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32) (((cfg0.win 6).blk t).view.emb (ix2 p j))
  refine (block_hNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32) (pt t) (iblk m c 0 t) (iblk m c 1 t) (iblk m c 2 t) (iblk m c 3 t) (iblk m c 4 t) (iblk m c 5 t) (isBlock m c t) p j).trans ?_
  refine congrArg (hNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32)) ?_
  funext a
  apply Fin.ext
  match a with
  | ⟨0, _⟩ => show 256 * t.val + p.val = win0_6.index t 0 * 256 + 1 * p.val; rw [e0]; omega
  | ⟨1, _⟩ => show j.val = win0_6.index t 1 * 1024 + 1 * j.val; rw [e1]; omega

/-- What point `t` writes back to the new cell state is block `t` of the specification's function of the arguments. -/
theorem flushed7_eq (c : Dev nD) (t : Fin cfg0.N) :
    (dats m 0 c).flushed 7 t = ((cfg0.win 7).blk t).view.read (Elt Ideal)
      (cNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32)) := by
  show (cfg0.win 7).cut (grid0.coords t) ((dats m 0 c).after 7 t) = _
  rw [after7]
  unfold outC
  rw [View.canon_unit_zero hz]
  simp only [View.ld_unit_zero (S := S256x1024) hz, View.ld_unit_zero (S := S1024x4096) hz, View.ld_unit_zero (S := S1x4096) hz]
  obtain ⟨e0, e1, e2, e3⟩ := Cert.KernelIdeal.CellCover.idx_out t
  funext y
  obtain ⟨p, j, rfl⟩ : ∃ (p : Fin 256) (j : Fin 1024), y = ix2 p j := ⟨y 0, y 1, eq_ix2 y⟩
  show k0_pay2 (F := Ideal) (iblk m c 0 t) (iblk m c 1 t) (iblk m c 2 t) (iblk m c 3 t) (iblk m c 4 t) (iblk m c 5 t) (ix2 p j)
    = cNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32) (((cfg0.win 7).blk t).view.emb (ix2 p j))
  refine (block_cNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32) (pt t) (iblk m c 0 t) (iblk m c 1 t) (iblk m c 2 t) (iblk m c 3 t) (iblk m c 4 t) (iblk m c 5 t) (isBlock m c t) p j).trans ?_
  refine congrArg (cNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32)) ?_
  funext a
  apply Fin.ext
  match a with
  | ⟨0, _⟩ => show 256 * t.val + p.val = win0_7.index t 0 * 256 + 1 * p.val; rw [e2]; omega
  | ⟨1, _⟩ => show j.val = win0_7.index t 1 * 1024 + 1 * j.val; rw [e3]; omega

/-- The new hidden state's array after the run. -/
theorem final6 (c : Dev nD) : (dats m 0 c).arrAt 6 cfg0.N = hNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32) :=
  (dats m 0 c).arrAt_eq_of_cover 6 (hNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32))
    (fun t _ => flushed6_eq m c t) Cert.KernelIdeal.CellCover.cover6

/-- The new cell state's array after the run. -/
theorem final7 (c : Dev nD) : (dats m 0 c).arrAt 7 cfg0.N = cNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32) :=
  (dats m 0 c).arrAt_eq_of_cover 7 (cNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32))
    (fun t _ => flushed7_eq m c t) Cert.KernelIdeal.CellCover.cover7

/-- The run, read: both results at the specification, every argument as launched. -/
theorem run : θ_run defs (onTc (τ := τ) (main (F := Ideal))) ⟨m, fun _ => 0, ρ⟩ fun r => ∀ c : Dev nD,
      r.2.mem ((c : Thread nD τ).loc main_v20_0) = hNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32)
      ∧ r.2.mem ((c : Thread nD τ).loc main_v20_1) = cNext (m ((c : Thread nD τ).loc main_arg0) : FVec Ideal S16384x1024 .f32) (m ((c : Thread nD τ).loc main_arg1) : FVec Ideal S16384x1024 .f32) (m ((c : Thread nD τ).loc main_arg2) : FVec Ideal S16384x1024 .f32) (m ((c : Thread nD τ).loc main_arg3) : FVec Ideal S1024x1024 .f32) (m ((c : Thread nD τ).loc main_arg4) : FVec Ideal S1024 .f32) (m ((c : Thread nD τ).loc main_arg5) : FVec Ideal S1024x1024 .f32) (m ((c : Thread nD τ).loc main_arg6) : FVec Ideal S1024 .f32) (m ((c : Thread nD τ).loc main_arg7) : FVec Ideal S1024x1024 .f32) (m ((c : Thread nD τ).loc main_arg8) : FVec Ideal S1024 .f32) (m ((c : Thread nD τ).loc main_arg9) : FVec Ideal S1024x1024 .f32) (m ((c : Thread nD τ).loc main_arg10) : FVec Ideal S1024 .f32) (m ((c : Thread nD τ).loc main_arg11) : FVec Ideal S1024x1024 .f32) (m ((c : Thread nD τ).loc main_arg12) : FVec Ideal S1024 .f32) (m ((c : Thread nD τ).loc main_arg13) : FVec Ideal S1024x1024 .f32) (m ((c : Thread nD τ).loc main_arg14) : FVec Ideal S1024 .f32) (m ((c : Thread nD τ).loc main_arg15) : FVec Ideal S1024x1024 .f32) (m ((c : Thread nD τ).loc main_arg16) : FVec Ideal S1024 .f32) (m ((c : Thread nD τ).loc main_arg17) : FVec Ideal S1024x1024 .f32) (m ((c : Thread nD τ).loc main_arg18) : FVec Ideal S1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.CellRun

end
-- ==== Proof.RefIsSpec.lean ====
import proofs.«147148_j78855599554847_2_alg».proof.Proof.Gen.ReferenceIdeal.Run
import proofs.«147148_j78855599554847_2_alg».proof.Proof.Gen.ReferenceIdeal.Read
import proofs.«147148_j78855599554847_2_alg».proof.Proof.Spec

/-
  The reference program computes the LSTM-style cell of the specification.

  Each of its four gates is built as ((x·Wxᵀ + bx) + h·Whᵀ) + bh, where the transposed weight matrix is read
  through a transpose and each bias through two broadcasts. Read at row r and unit j this is
      ((Σ_k x[r,k]·Wx[j,k] + bx[j]) + Σ_k h[r,k]·Wh[j,k]) + bh[j],
  which equals the specification's (Σ_k x[r,k]·Wx[j,k] + Σ_k h[r,k]·Wh[j,k]) + (bx[j] + bh[j]) by commutativity
  and associativity of + on the extended reals. The cell state and the hidden state are then the same
  products, sums and tanh of the gates on both sides.
-/

noncomputable section

namespace Cert.RefIsSpec

open Cert.ReferenceIdeal Cert.ReferenceIdeal.Gen Cert.ReferenceIdeal.Read Cert.LstmSpec
open Idealize.ShloMosaic Idealize.ShloMosaic.ValueIdx Idealize.ShloMosaic.TcCoe Idealize.SL.Sem Idealize.ShloMosaic.StableHlo
open scoped BigOperators

/-! ### The index maps of the first gate at row `r`, unit `j` -/

/-- The left operand of the x-projection is read at row `r`, column `k`. -/
theorem lidx_x (r : Fin 16384) (j k : Fin 1024) : lidx_main_v1 (ix2 r j) k = ix2 r k :=
  funext fun a => Fin.ext (by match a with | ⟨0, _⟩ => rfl | ⟨1, _⟩ => rfl)

/-- Its transposed weight matrix is read at row `k`, column `j` … -/
theorem ridx_x (r : Fin 16384) (j k : Fin 1024) : ridx_main_v1 (ix2 r j) k = ix2 k j :=
  funext fun a => Fin.ext (by match a with | ⟨0, _⟩ => rfl | ⟨1, _⟩ => rfl)

/-- … which is the weight matrix at row `j`, column `k`. -/
theorem tidx_x (j k : Fin 1024) : idx_main_v0 (ix2 k j) = ix2 j k :=
  funext fun a => Fin.ext (by match a with | ⟨0, _⟩ => rfl | ⟨1, _⟩ => rfl)

/-- The outer broadcast of the x-bias drops the row … -/
theorem bidx_outer_x (r : Fin 16384) (j : Fin 1024) : idx_main_v3 (ix2 r j) = ix2 (0 : Fin 1) j :=
  funext fun a => Fin.ext (by match a with | ⟨0, _⟩ => rfl | ⟨1, _⟩ => rfl)

/-- … and the inner one reads the bias at unit `j`. -/
theorem bidx_inner_x (j : Fin 1024) : idx_main_v2 (ix2 (0 : Fin 1) j) = ix1 j :=
  funext fun a => Fin.ext (by match a with | ⟨0, _⟩ => rfl)

/-- The left operand of the h-projection is read at row `r`, column `k`. -/
theorem lidx_h (r : Fin 16384) (j k : Fin 1024) : lidx_main_v6 (ix2 r j) k = ix2 r k :=
  funext fun a => Fin.ext (by match a with | ⟨0, _⟩ => rfl | ⟨1, _⟩ => rfl)

/-- Its transposed weight matrix is read at row `k`, column `j` … -/
theorem ridx_h (r : Fin 16384) (j k : Fin 1024) : ridx_main_v6 (ix2 r j) k = ix2 k j :=
  funext fun a => Fin.ext (by match a with | ⟨0, _⟩ => rfl | ⟨1, _⟩ => rfl)

/-- … which is the weight matrix at row `j`, column `k`. -/
theorem tidx_h (j k : Fin 1024) : idx_main_v5 (ix2 k j) = ix2 j k :=
  funext fun a => Fin.ext (by match a with | ⟨0, _⟩ => rfl | ⟨1, _⟩ => rfl)

/-- The outer broadcast of the h-bias drops the row … -/
theorem bidx_outer_h (r : Fin 16384) (j : Fin 1024) : idx_main_v9 (ix2 r j) = ix2 (0 : Fin 1) j :=
  funext fun a => Fin.ext (by match a with | ⟨0, _⟩ => rfl | ⟨1, _⟩ => rfl)

/-- … and the inner one reads the bias at unit `j`. -/
theorem bidx_inner_h (j : Fin 1024) : idx_main_v8 (ix2 (0 : Fin 1) j) = ix1 j :=
  funext fun a => Fin.ext (by match a with | ⟨0, _⟩ => rfl)

/-! ### The gates -/

/-- The input gate of the reference at row `r`, unit `j` is the specification's gate: the two sums and the two
    biases are the same four terms, added in another order. -/
theorem gate_v10 (x0 x1 : (⟨S16384x1024, .f32⟩ : BufTy).Contents (Elt Ideal)) (x3 : (⟨S1024x1024, .f32⟩ : BufTy).Contents (Elt Ideal)) (x4 : (⟨S1024, .f32⟩ : BufTy).Contents (Elt Ideal)) (x11 : (⟨S1024x1024, .f32⟩ : BufTy).Contents (Elt Ideal)) (x12 : (⟨S1024, .f32⟩ : BufTy).Contents (Elt Ideal))
    (r : Fin 16384) (j : Fin 1024) :
    val_main_v10 (F := Ideal) x0 x1 x3 x4 x11 x12 (ix2 r j) = gate x0 x1 x3 x4 x11 x12 r j := by
  rw [val_main_v10_apply, val_main_v7_apply, val_main_v4_apply, val_main_v1_apply, val_main_v6_apply,
    val_main_v3_apply, val_main_v2_apply, val_main_v9_apply, val_main_v8_apply]
  simp only [val_main_v0_apply, val_main_v5_apply, lidx_x, ridx_x, tidx_x, bidx_outer_x, bidx_inner_x,
    lidx_h, ridx_h, tidx_h, bidx_outer_h, bidx_inner_h, Ideal.addf_def]
  unfold gate
  rw [add_assoc, add_add_add_comm]

/-- The other three gates of the reference are the same composition of operations as the input gate, applied to
    their own weights and biases. -/
theorem v21_eq_v10 (a b : (⟨S16384x1024, .f32⟩ : BufTy).Contents (Elt Ideal)) (Wx : (⟨S1024x1024, .f32⟩ : BufTy).Contents (Elt Ideal)) (bx : (⟨S1024, .f32⟩ : BufTy).Contents (Elt Ideal)) (Wh : (⟨S1024x1024, .f32⟩ : BufTy).Contents (Elt Ideal)) (bh : (⟨S1024, .f32⟩ : BufTy).Contents (Elt Ideal)) :
    val_main_v21 (F := Ideal) a b Wx bx Wh bh = val_main_v10 (F := Ideal) a b Wx bx Wh bh := rfl

theorem v32_eq_v10 (a b : (⟨S16384x1024, .f32⟩ : BufTy).Contents (Elt Ideal)) (Wx : (⟨S1024x1024, .f32⟩ : BufTy).Contents (Elt Ideal)) (bx : (⟨S1024, .f32⟩ : BufTy).Contents (Elt Ideal)) (Wh : (⟨S1024x1024, .f32⟩ : BufTy).Contents (Elt Ideal)) (bh : (⟨S1024, .f32⟩ : BufTy).Contents (Elt Ideal)) :
    val_main_v32 (F := Ideal) a b Wx bx Wh bh = val_main_v10 (F := Ideal) a b Wx bx Wh bh := rfl

theorem v44_eq_v10 (a b : (⟨S16384x1024, .f32⟩ : BufTy).Contents (Elt Ideal)) (Wx : (⟨S1024x1024, .f32⟩ : BufTy).Contents (Elt Ideal)) (bx : (⟨S1024, .f32⟩ : BufTy).Contents (Elt Ideal)) (Wh : (⟨S1024x1024, .f32⟩ : BufTy).Contents (Elt Ideal)) (bh : (⟨S1024, .f32⟩ : BufTy).Contents (Elt Ideal)) :
    val_main_v44 (F := Ideal) a b Wx bx Wh bh = val_main_v10 (F := Ideal) a b Wx bx Wh bh := rfl

/-! ### The cell state and the hidden state -/

/-- The reference's new cell state is `tanh g · i + c · f` of the specification's gates. -/
theorem ref_cNext (x0 x1 x2 : (⟨S16384x1024, .f32⟩ : BufTy).Contents (Elt Ideal))
    (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v47 (F := Ideal) x0 x1 x2 x3 x4 x5 x6 x7 x8 x11 x12 x13 x14 x15 x16
      = cNext x0 x1 x2 x3 x4 x5 x6 x7 x8 x9 x10 x11 x12 x13 x14 x15 x16 x17 x18 := by
  funext i
  obtain ⟨r, j, rfl⟩ : ∃ (r : Fin 16384) (j : Fin 1024), i = ix2 r j := ⟨i 0, i 1, eq_ix2 i⟩
  rw [val_main_v47_apply, val_main_v45_apply, val_main_v46_apply, val_main_v33_apply, v21_eq_v10, v32_eq_v10,
    gate_v10, gate_v10, gate_v10]
  simp only [Ideal.mulf_def, Ideal.addf_def, Ideal.hostUnary_tanh_def]
  rfl

/-- The reference's new hidden state is `o · tanh c'` of the specification's output gate and cell state. -/
theorem ref_hNext (x0 x1 x2 : (⟨S16384x1024, .f32⟩ : BufTy).Contents (Elt Ideal))
    (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v49 (F := Ideal) x0 x1 x2 x3 x4 x5 x6 x7 x8 x9 x10 x11 x12 x13 x14 x15 x16 x17 x18
      = hNext x0 x1 x2 x3 x4 x5 x6 x7 x8 x9 x10 x11 x12 x13 x14 x15 x16 x17 x18 := by
  funext i
  obtain ⟨r, j, rfl⟩ : ∃ (r : Fin 16384) (j : Fin 1024), i = ix2 r j := ⟨i 0, i 1, eq_ix2 i⟩
  rw [val_main_v49_apply, val_main_v48_apply,
    ref_cNext x0 x1 x2 x3 x4 x5 x6 x7 x8 x9 x10 x11 x12 x13 x14 x15 x16 x17 x18, v44_eq_v10, gate_v10]
  simp only [Ideal.mulf_def, Ideal.hostUnary_tanh_def]
  rfl

end Cert.RefIsSpec

end
-- ==== Proof.lean ====
/-
  The certificate of the fused LSTM-style cell against its plain reference.

  Both programs compute, for a batch of 16384 rows and 1024 hidden units, four affine gates
      gate = x·Wxᵀ + h·Whᵀ + bx + bh      (i, f, g, o; no squashing on i, f, o)
  and from them the new cell state c' = tanh g · i + c · f and the new hidden state h' = o · tanh c'.
  The kernel program fuses the eight weight matrices into two 1024 × 4096 matrices and the eight biases into one
  row of 4096 on the host, and runs one region over 64 blocks of 256 rows; the reference applies eight separate
  products. On the extended reals the two agree entry by entry: a cast between float formats is the identity, a
  product into a zero accumulator is the plain sum, and the gates differ only in the order in which the same four
  terms are added. No finiteness of the inputs is used.

  The three frames: each program runs to the end, faults nowhere and leaves its arguments as launched — for the
  two kernel programs by the frame of one region after a host prefix (the same proof at both instances), for the
  reference by its run. The idealization rewrote nothing, so there is nothing to preserve.
-/
import proofs.«147148_j78855599554847_2_alg».proof.Defs
import proofs.«147148_j78855599554847_2_alg».proof.Proof.Gen.Kernel
import proofs.«147148_j78855599554847_2_alg».proof.Proof.Gen.KernelIdeal
import proofs.«147148_j78855599554847_2_alg».proof.Proof.Gen.ReferenceIdeal
import proofs.«147148_j78855599554847_2_alg».proof.Proof.Gen.Pre_finite_inputs
import proofs.«147148_j78855599554847_2_alg».proof.Proof.Gen.ReferenceIdeal.Run
import proofs.«147148_j78855599554847_2_alg».proof.Proof.Gen.ReferenceIdeal.Read
import proofs.«147148_j78855599554847_2_alg».proof.Proof.KernelCellFrame
import proofs.«147148_j78855599554847_2_alg».proof.Proof.IdealCellFrame
import proofs.«147148_j78855599554847_2_alg».proof.Proof.CellRun
import proofs.«147148_j78855599554847_2_alg».proof.Proof.RefIsSpec
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Cell.frame m ρ

/-- The idealized kernel program runs and keeps its arguments. -/
theorem frame_ki : Cert.frame_KernelIdeal := fun m ρ _ => Cert.KernelIdeal.Cell.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The specification's results at equal arguments are equal. -/
theorem hNext_congr {x0 y0 : FVec Ideal Cert.LstmSpec.SAct .f32} {x1 y1 : FVec Ideal Cert.LstmSpec.SAct .f32} {x2 y2 : FVec Ideal Cert.LstmSpec.SAct .f32} {x3 y3 : FVec Ideal Cert.LstmSpec.SWt .f32} {x4 y4 : FVec Ideal Cert.LstmSpec.SBias .f32} {x5 y5 : FVec Ideal Cert.LstmSpec.SWt .f32} {x6 y6 : FVec Ideal Cert.LstmSpec.SBias .f32} {x7 y7 : FVec Ideal Cert.LstmSpec.SWt .f32} {x8 y8 : FVec Ideal Cert.LstmSpec.SBias .f32} {x9 y9 : FVec Ideal Cert.LstmSpec.SWt .f32} {x10 y10 : FVec Ideal Cert.LstmSpec.SBias .f32} {x11 y11 : FVec Ideal Cert.LstmSpec.SWt .f32} {x12 y12 : FVec Ideal Cert.LstmSpec.SBias .f32} {x13 y13 : FVec Ideal Cert.LstmSpec.SWt .f32} {x14 y14 : FVec Ideal Cert.LstmSpec.SBias .f32} {x15 y15 : FVec Ideal Cert.LstmSpec.SWt .f32} {x16 y16 : FVec Ideal Cert.LstmSpec.SBias .f32} {x17 y17 : FVec Ideal Cert.LstmSpec.SWt .f32} {x18 y18 : FVec Ideal Cert.LstmSpec.SBias .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) :
    Cert.LstmSpec.hNext x0 x1 x2 x3 x4 x5 x6 x7 x8 x9 x10 x11 x12 x13 x14 x15 x16 x17 x18 = Cert.LstmSpec.hNext y0 y1 y2 y3 y4 y5 y6 y7 y8 y9 y10 y11 y12 y13 y14 y15 y16 y17 y18 := by
  subst h0 h1 h2 h3 h4 h5 h6 h7 h8 h9 h10 h11 h12 h13 h14 h15 h16 h17 h18
  rfl

theorem cNext_congr {x0 y0 : FVec Ideal Cert.LstmSpec.SAct .f32} {x1 y1 : FVec Ideal Cert.LstmSpec.SAct .f32} {x2 y2 : FVec Ideal Cert.LstmSpec.SAct .f32} {x3 y3 : FVec Ideal Cert.LstmSpec.SWt .f32} {x4 y4 : FVec Ideal Cert.LstmSpec.SBias .f32} {x5 y5 : FVec Ideal Cert.LstmSpec.SWt .f32} {x6 y6 : FVec Ideal Cert.LstmSpec.SBias .f32} {x7 y7 : FVec Ideal Cert.LstmSpec.SWt .f32} {x8 y8 : FVec Ideal Cert.LstmSpec.SBias .f32} {x9 y9 : FVec Ideal Cert.LstmSpec.SWt .f32} {x10 y10 : FVec Ideal Cert.LstmSpec.SBias .f32} {x11 y11 : FVec Ideal Cert.LstmSpec.SWt .f32} {x12 y12 : FVec Ideal Cert.LstmSpec.SBias .f32} {x13 y13 : FVec Ideal Cert.LstmSpec.SWt .f32} {x14 y14 : FVec Ideal Cert.LstmSpec.SBias .f32} {x15 y15 : FVec Ideal Cert.LstmSpec.SWt .f32} {x16 y16 : FVec Ideal Cert.LstmSpec.SBias .f32} {x17 y17 : FVec Ideal Cert.LstmSpec.SWt .f32} {x18 y18 : FVec Ideal Cert.LstmSpec.SBias .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) :
    Cert.LstmSpec.cNext x0 x1 x2 x3 x4 x5 x6 x7 x8 x9 x10 x11 x12 x13 x14 x15 x16 x17 x18 = Cert.LstmSpec.cNext y0 y1 y2 y3 y4 y5 y6 y7 y8 y9 y10 y11 y12 y13 y14 y15 y16 y17 y18 := by
  subst h0 h1 h2 h3 h4 h5 h6 h7 h8 h9 h10 h11 h12 h13 h14 h15 h16 h17 h18
  rfl

set_option maxHeartbeats 1600000 in
/-- From arguments that agree, the kernel program's two results and the reference's are the specification's new
    hidden state and new cell state of those arguments. -/
theorem algebraic : Cert.algebraic_KernelIdeal_ReferenceIdeal := by
  intro m ρ m' ρ' _ hagree
  refine ⟨_, _, Cert.KernelIdeal.CellRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18⟩ := hagree c
  refine ⟨(h c).1.trans ?_, (h c).2.1.trans ?_, (h c).2.2⟩
  · rw [Cert.ReferenceIdeal.Read.val_main_v49_eq, Cert.RefIsSpec.ref_hNext]
    exact hNext_congr a0 a1 a2 a3 a4 a5 a6 a7 a8 a9 a10 a11 a12 a13 a14 a15 a16 a17 a18
  · rw [Cert.ReferenceIdeal.Read.val_main_v47_eq,
      Cert.RefIsSpec.ref_cNext (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))]
    exact cNext_congr a0 a1 a2 a3 a4 a5 a6 a7 a8 a9 a10 a11 a12 a13 a14 a15 a16 a17 a18

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
